-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_cst)) (v1 : (c : Dev Cert.KernelIdeal.nD) → Buf (Elt Ideal) ((c.tc : Thread Cert.KernelIdeal.nD Cert.KernelIdeal.τ).loc Cert.KernelIdeal.main_v17_0)) (v2 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_cst) = v0 c
          ∧ r.2.mem ((c.tc : Thread Cert.KernelIdeal.nD Cert.KernelIdeal.τ).loc Cert.KernelIdeal.main_v17_0) = v1 c
          ∧ r.2.mem ((c.tc : Thread Cert.KernelIdeal.nD Cert.KernelIdeal.τ).loc Cert.KernelIdeal.main_v20) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_cst_2) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192 : Shape := ⟨1, ![8192]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : IVec S8192 32) (main_arg2 : IVec S8192 1) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Kernel.lean ====
abbrev S8192x1024 : Shape := ⟨2, ![8192, 1024]⟩
abbrev S8192 : Shape := ⟨1, ![8192]⟩
abbrev S8192x1 : Shape := ⟨2, ![8192, 1]⟩
abbrev S1x16 : Shape := ⟨2, ![1, 16]⟩
abbrev S8192x16 : Shape := ⟨2, ![8192, 16]⟩
abbrev S_ : Shape := ⟨0, ![]⟩
abbrev S8192x16x512 : Shape := ⟨3, ![8192, 16, 512]⟩
abbrev S128x16 : Shape := ⟨2, ![128, 16]⟩
abbrev S128x1 : Shape := ⟨2, ![128, 1]⟩
abbrev S128x16x512 : Shape := ⟨3, ![128, 16, 512]⟩
abbrev S128x512 : Shape := ⟨2, ![128, 512]⟩
abbrev S128x16x1 : Shape := ⟨3, ![128, 16, 1]⟩
abbrev S128x1x512 : Shape := ⟨3, ![128, 1, 512]⟩

abbrev nBuf : Space → Nat
  | .hbm => 37
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S8192, .i1⟩
  | .hbm, ⟨3, _⟩ => ⟨S8192x1, .i32⟩
  | .hbm, ⟨4, _⟩ => ⟨S1x16, .i32⟩
  | .hbm, ⟨5, _⟩ => ⟨S8192x16, .i32⟩
  | .hbm, ⟨6, _⟩ => ⟨S8192x16, .i32⟩
  | .hbm, ⟨7, _⟩ => ⟨S8192x16, .i1⟩
  | .hbm, ⟨8, _⟩ => ⟨S8192x16, .i32⟩
  | .hbm, ⟨9, _⟩ => ⟨S8192, .i1⟩
  | .hbm, ⟨10, _⟩ => ⟨S8192x1, .i1⟩
  | .hbm, ⟨11, _⟩ => ⟨S8192x1, .i32⟩
  | .hbm, ⟨12, _⟩ => ⟨S8192x16, .i32⟩
  | .hbm, ⟨13, _⟩ => ⟨S8192x16, .i32⟩
  | .hbm, ⟨14, _⟩ => ⟨S_, .i32⟩
  | .hbm, ⟨15, _⟩ => ⟨S_, .i32⟩
  | .hbm, ⟨16, _⟩ => ⟨S8192x16, .i32⟩
  | .hbm, ⟨17, _⟩ => ⟨S_, .i32⟩
  | .hbm, ⟨18, _⟩ => ⟨S8192x16, .i32⟩
  | .hbm, ⟨19, _⟩ => ⟨S8192x16, .i32⟩
  | .hbm, ⟨20, _⟩ => ⟨S_, .i32⟩
  | .hbm, ⟨21, _⟩ => ⟨S8192x16, .i32⟩
  | .hbm, ⟨22, _⟩ => ⟨S8192x16, .i1⟩
  | .hbm, ⟨23, _⟩ => ⟨S8192x16, .i32⟩
  | .hbm, ⟨24, _⟩ => ⟨S8192x16, .i32⟩
  | .hbm, ⟨25, _⟩ => ⟨S8192x16, .i32⟩
  | .hbm, ⟨26, _⟩ => ⟨S_, .i32⟩
  | .hbm, ⟨27, _⟩ => ⟨S8192, .i32⟩
  | .hbm, ⟨28, _⟩ => ⟨S8192x16, .f32⟩
  | .hbm, ⟨29, _⟩ => ⟨S8192x1, .i32⟩
  | .hbm, ⟨30, _⟩ => ⟨S8192x16x512, .f32⟩
  | .hbm, ⟨31, _⟩ => ⟨S8192x16x512, .i32⟩
  | .hbm, ⟨32, _⟩ => ⟨S_, .i32⟩
  | .hbm, ⟨33, _⟩ => ⟨S8192x16x512, .i32⟩
  | .hbm, ⟨34, _⟩ => ⟨S8192x16x512, .i1⟩
  | .hbm, ⟨35, _⟩ => ⟨S8192x16x512, .i1⟩
  | .hbm, ⟨36, _⟩ => ⟨S_, .f32⟩
  | .local _ .vmem, ⟨0, _⟩ => ⟨S128x16, .f32⟩
  | .local _ .vmem, ⟨1, _⟩ => ⟨S128x16, .f32⟩
  | .local _ .vmem, ⟨2, _⟩ => ⟨S128x1, .i32⟩
  | .local _ .vmem, ⟨3, _⟩ => ⟨S128x1, .i32⟩
  | .local _ .vmem, ⟨4, _⟩ => ⟨S128x16x512, .f32⟩
  | .local _ .vmem, ⟨5, _⟩ => ⟨S128x16x512, .f32⟩
  | .local _ .vmem, ⟨6, _⟩ => ⟨S128x16x512, .i32⟩
  | .local _ .vmem, ⟨7, _⟩ => ⟨S128x16x512, .i32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call1_call0_c : Ref sig .tc := ⟨.hbm, 14, rfl⟩
abbrev main_call1_call0_v0 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_c_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17_0 : Ref sig .tc := ⟨.hbm, 30, rfl⟩
abbrev main_v17_1 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x16x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S8192_S8192x1_0 : S8192.BroadcastsInDim S8192x1 (![0] : Fin 1 → Fin S8192x1.rank)
  bcast_S8192x1_S8192x16_0_1 : S8192x1.BroadcastsInDim S8192x16 (![0, 1] : Fin 2 → Fin S8192x16.rank)
  bcast_S1x16_S8192x16_0_1 : S1x16.BroadcastsInDim S8192x16 (![0, 1] : Fin 2 → Fin S8192x16.rank)
  natLt_1_32 : 1 < 32
  bcast_S_S_ : S_.BroadcastsInDim S_ (![] : Fin 0 → Fin S_.rank)
  reduceWindows_S8192x16_S8192x16_w8192s1p8191_0_w1s1p0_0 : S8192x16.ReduceWindows (![8192, 1] : Fin 2 → Nat) ![1, 1] ![8191, 0] ![0, 0] S8192x16
  h_S_ : 0 < S_.numel
  bcast_S_S8192x16 : S_.BroadcastsInDim S8192x16 (![] : Fin 0 → Fin S8192x16.rank)
  reducesTo_S8192x16_S8192_d1 : S8192x16.ReducesTo [1] S8192
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S128x1_S128x1_0_0 : ∀ a, (![0, 0] : Fin 2 → Nat) a + S128x1.size a ≤ S128x1.size a
  h_S128x1 : 0 < S128x1.numel
  shapeCasts_S128x1_S128x1 : S128x1.ShapeCasts S128x1
  iota_S128x512_d1_w32 : S128x512.Iotas .tc 32 [1]
  broadcasts_S128x1_S128x512 : S128x1.Broadcasts S128x512
  shapeCasts_S128x16_S128x16x1 : S128x16.ShapeCasts S128x16x1
  shapeCasts_S128x512_S128x1x512 : S128x512.ShapeCasts S128x1x512
  broadcasts_S128x16x1_S128x16x512 : S128x16x1.Broadcasts S128x16x512
  broadcasts_S128x1x512_S128x16x512 : S128x1x512.Broadcasts S128x16x512
  inb_S128x16x512_S128x16x512_0_0_0 : ∀ a, (![0, 0, 0] : Fin 3 → Nat) a + S128x16x512.size a ≤ S128x16x512.size a
  h_S128x16x512 : 0 < S128x16x512.numel
  bcast_S_S8192x16x512 : S_.BroadcastsInDim S8192x16x512 (![] : Fin 0 → Fin S8192x16x512.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16.size a ≤ S8192x16.size a
  hwx0_0 : ∀ i : grid0.Coords, EltTy.bits .f32 = 32 ∨ (Rect.block (s := S8192x16) S128x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S8192x1.size a
  hwx0_1 : ∀ i : grid0.Coords, EltTy.bits .i32 = 32 ∨ (Rect.block (s := S8192x1) S128x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x16x512.size a ≤ S8192x16x512.size a
  hwx0_2 : ∀ i : grid0.Coords, EltTy.bits .f32 = 32 ∨ (Rect.block (s := S8192x16x512) S128x16x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x16x512.size a ≤ S8192x16x512.size a
  hwx0_3 : ∀ i : grid0.Coords, EltTy.bits .i32 = 32 ∨ (Rect.block (s := S8192x16x512) S128x16x512.size (cc0_transform_3 i) (hinb0_3 i)).WholeWords (EltTy.packing .i32)

variable [Facts₀]

abbrev win0_0 : Pipeline.Window sig grid0 :=
  Pipeline.Window.ofSpec (Memref.whole main_v15) S128x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17_0) S128x16x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17_1) S128x16x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192 : Shape := ⟨1, ![8192]⟩
abbrev S8192x1 : Shape := ⟨2, ![8192, 1]⟩
abbrev S1x16 : Shape := ⟨2, ![1, 16]⟩
abbrev S8192x16 : Shape := ⟨2, ![8192, 16]⟩
abbrev S_ : Shape := ⟨0, ![]⟩
abbrev S1x512 : Shape := ⟨2, ![1, 512]⟩
abbrev S8192x512 : Shape := ⟨2, ![8192, 512]⟩
abbrev S8192x16x1 : Shape := ⟨3, ![8192, 16, 1]⟩
abbrev S8192x1x512 : Shape := ⟨3, ![8192, 1, 512]⟩
abbrev S8192x16x512 : Shape := ⟨3, ![8192, 16, 512]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S8192, .i1⟩
  | .hbm, ⟨3, _⟩ => ⟨S8192x1, .i32⟩
  | .hbm, ⟨4, _⟩ => ⟨S1x16, .i32⟩
  | .hbm, ⟨5, _⟩ => ⟨S8192x16, .i32⟩
  | .hbm, ⟨6, _⟩ => ⟨S8192x16, .i32⟩
  | .hbm, ⟨7, _⟩ => ⟨S8192x16, .i1⟩
  | .hbm, ⟨8, _⟩ => ⟨S8192x16, .i32⟩
  | .hbm, ⟨9, _⟩ => ⟨S8192, .i1⟩
  | .hbm, ⟨10, _⟩ => ⟨S8192x1, .i1⟩
  | .hbm, ⟨11, _⟩ => ⟨S8192x1, .i32⟩
  | .hbm, ⟨12, _⟩ => ⟨S8192x16, .i32⟩
  | .hbm, ⟨13, _⟩ => ⟨S8192x16, .i32⟩
  | .hbm, ⟨14, _⟩ => ⟨S_, .i32⟩
  | .hbm, ⟨15, _⟩ => ⟨S_, .i32⟩
  | .hbm, ⟨16, _⟩ => ⟨S8192x16, .i32⟩
  | .hbm, ⟨17, _⟩ => ⟨S_, .i32⟩
  | .hbm, ⟨18, _⟩ => ⟨S8192x16, .i32⟩
  | .hbm, ⟨19, _⟩ => ⟨S8192x16, .i32⟩
  | .hbm, ⟨20, _⟩ => ⟨S_, .i32⟩
  | .hbm, ⟨21, _⟩ => ⟨S8192x16, .i32⟩
  | .hbm, ⟨22, _⟩ => ⟨S8192x16, .i1⟩
  | .hbm, ⟨23, _⟩ => ⟨S8192x16, .i32⟩
  | .hbm, ⟨24, _⟩ => ⟨S8192x16, .i32⟩
  | .hbm, ⟨25, _⟩ => ⟨S8192x16, .i32⟩
  | .hbm, ⟨26, _⟩ => ⟨S_, .i32⟩
  | .hbm, ⟨27, _⟩ => ⟨S8192, .i32⟩
  | .hbm, ⟨28, _⟩ => ⟨S8192x16, .f32⟩
  | .hbm, ⟨29, _⟩ => ⟨S8192x1, .i32⟩
  | .hbm, ⟨30, _⟩ => ⟨S1x512, .i32⟩
  | .hbm, ⟨31, _⟩ => ⟨S8192x512, .i32⟩
  | .hbm, ⟨32, _⟩ => ⟨S8192x512, .i32⟩
  | .hbm, ⟨33, _⟩ => ⟨S8192x512, .i1⟩
  | .hbm, ⟨34, _⟩ => ⟨S8192x512, .f32⟩
  | .hbm, ⟨35, _⟩ => ⟨S8192x16x1, .f32⟩
  | .hbm, ⟨36, _⟩ => ⟨S8192x1x512, .f32⟩
  | .hbm, ⟨37, _⟩ => ⟨S8192x16x512, .f32⟩
  | .hbm, ⟨38, _⟩ => ⟨S8192x16x512, .f32⟩
  | .hbm, ⟨39, _⟩ => ⟨S8192x16x512, .f32⟩
  | .hbm, ⟨40, _⟩ => ⟨S_, .f32⟩
  | .hbm, ⟨41, _⟩ => ⟨S8192x16x512, .f32⟩
  | .hbm, ⟨42, _⟩ => ⟨S8192x16x512, .i1⟩
  | .hbm, ⟨43, _⟩ => ⟨S8192x16x512, .i1⟩
  | .hbm, ⟨44, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call1_call0_c : Ref sig .tc := ⟨.hbm, 14, rfl⟩
abbrev main_call1_call0_v0 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_c_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_call2_v0 : Ref sig .tc := ⟨.hbm, 29, rfl⟩
abbrev main_call2_v1 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_2 : Ref sig .tc := ⟨.hbm, 44, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192x1_S8192x16_0_1 : S8192x1.BroadcastsInDim S8192x16 (![0, 1] : Fin 2 → Fin S8192x16.rank)
  bcast_S1x16_S8192x16_0_1 : S1x16.BroadcastsInDim S8192x16 (![0, 1] : Fin 2 → Fin S8192x16.rank)
  natLt_1_32 : 1 < 32
  bcast_S_S_ : S_.BroadcastsInDim S_ (![] : Fin 0 → Fin S_.rank)
  reduceWindows_S8192x16_S8192x16_w8192s1p8191_0_w1s1p0_0 : S8192x16.ReduceWindows (![8192, 1] : Fin 2 → Nat) ![1, 1] ![8191, 0] ![0, 0] S8192x16
  h_S_ : 0 < S_.numel
  bcast_S_S8192x16 : S_.BroadcastsInDim S8192x16 (![] : Fin 0 → Fin S8192x16.rank)
  reducesTo_S8192x16_S8192_d1 : S8192x16.ReducesTo [1] S8192
  bcast_S8192x1_S8192x512_0_1 : S8192x1.BroadcastsInDim S8192x512 (![0, 1] : Fin 2 → Fin S8192x512.rank)
  bcast_S1x512_S8192x512_0_1 : S1x512.BroadcastsInDim S8192x512 (![0, 1] : Fin 2 → Fin S8192x512.rank)
  bcast_S8192x16_S8192x16x1_0_1 : S8192x16.BroadcastsInDim S8192x16x1 (![0, 1] : Fin 2 → Fin S8192x16x1.rank)
  bcast_S8192x512_S8192x1x512_0_2 : S8192x512.BroadcastsInDim S8192x1x512 (![0, 2] : Fin 2 → Fin S8192x1x512.rank)
  bcast_S8192x16x1_S8192x16x512_0_1_2 : S8192x16x1.BroadcastsInDim S8192x16x512 (![0, 1, 2] : Fin 3 → Fin S8192x16x512.rank)
  bcast_S8192x1x512_S8192x16x512_0_1_2 : S8192x1x512.BroadcastsInDim S8192x16x512 (![0, 1, 2] : Fin 3 → Fin S8192x16x512.rank)
  bcast_S_S8192x16x512 : S_.BroadcastsInDim S8192x16x512 (![] : Fin 0 → Fin S8192x16x512.rank)

variable [Facts₀]

class Facts : Prop extends Facts₀ where

variable [Facts]
-- ==== Proof.Spec.lean ====
/-
  The specification both programs meet, and the scalar laws that join their spellings.

  For a token `r`, an expert `e` and a capacity position `q` the combine weight is
      gate(r, e) · [ slot(r) = q ]
  where `gate` is the kept assignment (0 or 1 as a float) and `slot` the token's position within its expert,
  both integer functions of the expert ids and the padding mask; the dispatch mask is "the weight is not zero".
  The kernel spells the indicator as an equality bit zero-extended to a word and read as a signed integer, the
  reference as the same bit read as an unsigned integer: one number. The kernel compares "ordered and unequal",
  the reference "unordered or unequal": on the extended reals there is nothing unordered, so one comparison.
-/
import Idealize.ShloMosaic.PureOps.Ideal
import Idealize.ShloMosaic.PureOps.Ideal.Laws
import Idealize.ShloMosaic.Lib.ValueIdx

noncomputable section

namespace Cert.Routing

open Idealize.ShloMosaic Idealize.ShloMosaic.ValueIdx

/-- A bit zero-extended to a word and read as a SIGNED integer is the bit read as an UNSIGNED one (0 or 1). -/
theorem sitofp_extui_bit (b : BitVec 1) :
    FloatOps.sitofp (F := Ideal) .f32 (b.setWidth 32) = FloatOps.uitofp (F := Ideal) .f32 b := by
  show (((b.setWidth 32).toInt : ℝ) : EReal) = ((b.toNat : ℝ) : EReal)
  have h : (b.setWidth 32).toInt = (b.toNat : Int) := by
    rcases BitVec.eq_zero_or_eq_one b with h | h <;> subst h <;> decide
  rw [h, Int.cast_natCast]

/-- Equality of words does not depend on the order of its operands. -/
theorem cmpi_eq_comm (x y : BitVec 32) : IntOp.cmpi .eq x y = IntOp.cmpi .eq y x := by
  show BitVec.ofBool (x == y) = BitVec.ofBool (y == x)
  rw [show (x == y) = (y == x) from Bool.beq_comm]

/-- A zero-extended bit differs from the zero word exactly when the bit is set. -/
theorem cmpi_ne_extui_bit (b : BitVec 1) : IntOp.cmpi .ne (b.setWidth 32) 0#32 = b := by
  rcases BitVec.eq_zero_or_eq_one b with h | h <;> subst h <;> decide

/-- On the extended reals "ordered and unequal" and "unordered or unequal" are the same comparison. -/
theorem cmp_one_eq_une (x y : EReal) : Ideal.cmp .one x y = Ideal.cmp .une x y := rfl

/-- The array shapes of the specification: tokens × experts × capacity, tokens × experts, tokens. -/
abbrev TEC : Shape := ⟨3, ![8192, 16, 512]⟩
abbrev TE : Shape := ⟨2, ![8192, 16]⟩
abbrev Tk : Shape := ⟨1, ![8192]⟩

/-- The indicator that a token whose slot word is `l` sits at capacity position `q`, as an extended real. -/
def atSlot (l : BitVec 32) (q : Fin 512) : EReal :=
  FloatOps.uitofp (F := Ideal) .f32 (IntOp.cmpi .eq l (BitVec.ofNat 32 q.val))

/-- The combine weight of token `r`, expert `e`, capacity position `q`. -/
def weightAt (g : TE.Idx → EReal) (l : Tk.Idx → BitVec 32) (r : Fin 8192) (e : Fin 16) (q : Fin 512) : EReal :=
  g (ix2 r e) * atSlot (l (ix1 r)) q

/-- The combine weights as one array. -/
def weights (g : TE.Idx → EReal) (l : Tk.Idx → BitVec 32) : TEC.Idx → EReal :=
  fun i => weightAt g l (i 0) (i 1) (i 2)

/-- The dispatch mask: the weight is not zero. -/
def routed (g : TE.Idx → EReal) (l : Tk.Idx → BitVec 32) : TEC.Idx → BitVec 1 :=
  fun i => Ideal.cmp .une (weights g l i) (Ideal.ofBits .f32 0x00000000#32)

theorem weights_apply (g : TE.Idx → EReal) (l : Tk.Idx → BitVec 32) (r : Fin 8192) (e : Fin 16) (q : Fin 512) :
    weights g l (ix3 r e q) = weightAt g l r e q := rfl

theorem routed_apply (g : TE.Idx → EReal) (l : Tk.Idx → BitVec 32) (r : Fin 8192) (e : Fin 16) (q : Fin 512) :
    routed g l (ix3 r e q) = Ideal.cmp .une (weightAt g l r e q) (Ideal.ofBits .f32 0x00000000#32) := rfl

/-- The weights at an array index whose three coordinates are known as numbers. -/
theorem weights_at (g : TE.Idx → EReal) (l : Tk.Idx → BitVec 32) (i : TEC.Idx) (r : Fin 8192) (e : Fin 16) (q : Fin 512)
    (h0 : (i 0).val = r.val) (h1 : (i 1).val = e.val) (h2 : (i 2).val = q.val) : weights g l i = weightAt g l r e q := by
  have hi : i = ix3 r e q := funext fun a => match a with
    | ⟨0, _⟩ => Fin.ext h0 | ⟨1, _⟩ => Fin.ext h1 | ⟨2, _⟩ => Fin.ext h2
  rw [hi]; rfl

/-- The dispatch mask at an array index whose three coordinates are known as numbers. -/
theorem routed_at (g : TE.Idx → EReal) (l : Tk.Idx → BitVec 32) (i : TEC.Idx) (r : Fin 8192) (e : Fin 16) (q : Fin 512)
    (h0 : (i 0).val = r.val) (h1 : (i 1).val = e.val) (h2 : (i 2).val = q.val) :
    routed g l i = Ideal.cmp .une (weightAt g l r e q) (Ideal.ofBits .f32 0x00000000#32) := by
  have hi : i = ix3 r e q := funext fun a => match a with
    | ⟨0, _⟩ => Fin.ext h0 | ⟨1, _⟩ => Fin.ext h1 | ⟨2, _⟩ => Fin.ext h2
  rw [hi]; rfl

/-- The slots as the kernel receives them, a [8192, 1] column, read as a vector. -/
def column (x : (⟨2, ![8192, 1]⟩ : Shape).Idx → BitVec 32) : Tk.Idx → BitVec 32 := fun r => x (ix2 (r 0) (0 : Fin 1))

/-- The dispatch mask as the kernel stores it: the bit zero-extended to a word. -/
def routedWord (g : TE.Idx → EReal) (l : Tk.Idx → BitVec 32) : TEC.Idx → BitVec 32 := fun i => (routed g l i).setWidth 32

/-- The kernel's spelling of the indicator: the equality bit of the position's word and the slot, zero-extended
    and read signed. -/
theorem atSlot_kernel (l : BitVec 32) (q : Fin 512) :
    FloatOps.sitofp (F := Ideal) .f32 ((IntOp.cmpi .eq (BitVec.ofNat 32 q.val) l).setWidth 32) = atSlot l q := by
  rw [sitofp_extui_bit, cmpi_eq_comm]; rfl

end Cert.Routing

end
-- ==== Proof.KernelBody.lean ====
/-
  The kernel body's two stored values, read at an index of the [128, 16, 512] block.

  The body loads a [128, 16] block of gates and a [128, 1] column of slots. Entry (p, e, q) of what it stores
  first is the gate at (p, e) times the indicator that row p's slot equals q: the gate block is viewed
  [128, 16, 1] and repeated along the capacity axis, the indicator (a lane iota compared with the slot column
  repeated along the lanes) is viewed [128, 1, 512] and repeated along the expert axis. What it stores second
  is the word 1 where that product is not zero and the word 0 elsewhere.
-/
import proofs.«105331_j68908455297139_1_alg».proof.Proof.Gen.KernelIdeal.Skeleton
import proofs.«105331_j68908455297139_1_alg».proof.Proof.Spec
import Idealize.ShloMosaic.Lib.Pipeline.Value
import Idealize.ShloMosaic.Lib.ValueIdx

noncomputable section

namespace Cert.KernelIdeal.Body

open Cert.KernelIdeal Cert.KernelIdeal.Gen Cert.KernelIdeal.Facts₀ Idealize.ShloMosaic Idealize.ShloMosaic.ValueIdx Cert.Routing

variable {α : Type}

/-- A [128, 1] column repeated along 512 lanes reads, at (p, q), the column at (p, 0). -/
theorem col_along_lanes (x : S128x1.Idx → α) (h : S128x1.Broadcasts S128x512) (p : Fin 128) (q : Fin 512) :
    broadcastTo S128x512 x h (ix2 p q) = x (ix2 p 0) :=
  broadcastTo_apply x h (ix2 p q) (ix2 p 0) fun a => match a with | ⟨0, _⟩ => rfl | ⟨1, _⟩ => rfl

/-- A [128, 16] matrix viewed [128, 16, 1] reads, at (p, e, z), the matrix at (p, e). -/
theorem view_trailing_unit (x : S128x16.Idx → α) (h : S128x16.ShapeCasts S128x16x1) (p : Fin 128) (e : Fin 16) (z : Fin 1) :
    shapeCast S128x16x1 x h (ix3 p e z) = x (ix2 p e) :=
  shapeCast_apply x h (ix3 p e z) (ix2 p e) (by
    rw [Shape.rowMajor_val_two, Shape.rowMajor_val_three]
    show p.val * 16 + e.val = (p.val * 16 + e.val) * 1 + z.val
    have := z.isLt; omega)

/-- A [128, 512] matrix viewed [128, 1, 512] reads, at (p, z, q), the matrix at (p, q). -/
theorem view_middle_unit (x : S128x512.Idx → α) (h : S128x512.ShapeCasts S128x1x512) (p : Fin 128) (z : Fin 1) (q : Fin 512) :
    shapeCast S128x1x512 x h (ix3 p z q) = x (ix2 p q) :=
  shapeCast_apply x h (ix3 p z q) (ix2 p q) (by
    rw [Shape.rowMajor_val_two, Shape.rowMajor_val_three]
    show p.val * 512 + q.val = (p.val * 1 + z.val) * 512 + q.val
    have := z.isLt; omega)

/-- A [128, 16, 1] array repeated along the capacity axis reads, at (p, e, q), the array at (p, e, 0). -/
theorem along_capacity (x : S128x16x1.Idx → α) (h : S128x16x1.Broadcasts S128x16x512) (p : Fin 128) (e : Fin 16) (q : Fin 512) :
    broadcastTo S128x16x512 x h (ix3 p e q) = x (ix3 p e 0) :=
  broadcastTo_apply x h (ix3 p e q) (ix3 p e 0) fun a => match a with | ⟨0, _⟩ => rfl | ⟨1, _⟩ => rfl | ⟨2, _⟩ => rfl

/-- A [128, 1, 512] array repeated along the expert axis reads, at (p, e, q), the array at (p, 0, q). -/
theorem along_experts (x : S128x1x512.Idx → α) (h : S128x1x512.Broadcasts S128x16x512) (p : Fin 128) (e : Fin 16) (q : Fin 512) :
    broadcastTo S128x16x512 x h (ix3 p e q) = x (ix3 p 0 q) :=
  broadcastTo_apply x h (ix3 p e q) (ix3 p 0 q) fun a => match a with | ⟨0, _⟩ => rfl | ⟨1, _⟩ => rfl | ⟨2, _⟩ => rfl

/-- The lane iota of a [128, 512] tile reads its lane number as a word. -/
theorem lane_iota (h : S128x512.Iotas .tc 32 [1]) (p : Fin 128) (q : Fin 512) :
    iota .tc S128x512 32 [1] h (ix2 p q) = BitVec.ofNat 32 q.val :=
  iota_single_apply .tc S128x512 32 1 h (ix2 p q)

/-- THE FIRST STORE at (p, e, q): the gate at (p, e) times the indicator that row p's slot is q. -/
theorem weight_block (x0 : Vec Ideal S128x16 .f32) (x1 : Vec Ideal S128x1 .i32) (p : Fin 128) (e : Fin 16) (q : Fin 512) :
    k0_pay1 (F := Ideal) x0 x1 (ix3 p e q) = x0 (ix2 p e) * atSlot (x1 (ix2 p 0)) q := by
  unfold k0_pay1
  dsimp only
  refine (mulf_apply _ _ _).trans ?_
  refine congrArg₂ (· * ·) ?_ ?_
  · rw [along_capacity, view_trailing_unit, shapeCast_self]
  · rw [along_experts, view_middle_unit]
    refine (sitofp_apply _ _).trans ?_
    rw [extui_apply]
    show FloatOps.sitofp (F := Ideal) .f32 ((IntOp.cmpi .eq (iota .tc S128x512 32 [1] _ (ix2 p q))
      (broadcastTo S128x512 (shapeCast S128x1 x1 _) _ (ix2 p q))).setWidth 32) = _
    rw [lane_iota, col_along_lanes, shapeCast_self]
    exact atSlot_kernel _ _

/-- THE SECOND STORE at (p, e, q): the bit "the first store's value is not zero", zero-extended to a word. -/
theorem mask_block (x0 : Vec Ideal S128x16 .f32) (x1 : Vec Ideal S128x1 .i32) (p : Fin 128) (e : Fin 16) (q : Fin 512) :
    k0_pay2 (F := Ideal) x0 x1 (ix3 p e q)
      = (Ideal.cmp .une (x0 (ix2 p e) * atSlot (x1 (ix2 p 0)) q) (Ideal.ofBits .f32 0x00000000#32)).setWidth 32 := by
  unfold k0_pay2
  rw [extui_apply]
  show (Ideal.cmp .one (k0_pay1 (F := Ideal) x0 x1 (ix3 p e q)) (Ideal.ofBits .f32 0x00000000#32)).setWidth 32 = _
  rw [weight_block, cmp_one_eq_une]

end Cert.KernelIdeal.Body

end
-- ==== Proof.KernelBlocks.lean ====
/-
  From the blocks the kernel writes back to the two arrays it leaves.

  Grid point t (of 64) receives rows 128·t … 128·t + 127 of the gates and of the slot column and writes back
  the same rows of the weights and of the mask words, whole along the expert and capacity axes. So what point t
  writes back is block t of ONE function of the two arrays the region finds — the specification's weights, and
  its dispatch mask as words — and since the 64 row blocks cover the 8192 rows the arrays end holding those
  functions.
-/
import proofs.«105331_j68908455297139_1_alg».proof.Proof.Gen.KernelIdeal.Frame
import proofs.«105331_j68908455297139_1_alg».proof.Proof.KernelBody
import proofs.«105331_j68908455297139_1_alg».proof.Proof.Spec
import Idealize.ShloMosaic.Lib.Pipeline.Value
import Idealize.ShloMosaic.Lib.ValueIdx

noncomputable section

namespace Cert.KernelIdeal.Blocks

open Cert.KernelIdeal Cert.KernelIdeal.Gen Cert.KernelIdeal.Body Idealize.ShloMosaic Idealize.ShloMosaic.TcCoe
open Idealize.ShloMosaic.ValueIdx Idealize.SL.Sem Cert.Routing
open Idealize.ShloMosaic.Pipeline (Dat Cfg Window)

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The gates and the slot column as the region finds them. -/
abbrev gatesIn (c : Dev nD) : TE.Idx → EReal := V (F := Ideal) m c main_v15
abbrev slotsIn (c : Dev nD) : Tk.Idx → BitVec 32 := column (V (F := Ideal) m c main_v16)

/-- The printed index maps over the grid: every window's row-block index is the output's, every other block
    index is 0, and the row-block index is below 64. -/
theorem index_facts : ∀ t : Fin cfg0.N,
    win0_0.index t (0 : Fin 2) = win0_2.index t (0 : Fin 3) ∧ win0_0.index t (1 : Fin 2) = 0
    ∧ win0_1.index t (0 : Fin 2) = win0_2.index t (0 : Fin 3) ∧ win0_1.index t (1 : Fin 2) = 0
    ∧ win0_3.index t (0 : Fin 3) = win0_2.index t (0 : Fin 3) ∧ win0_3.index t (1 : Fin 3) = 0 ∧ win0_3.index t (2 : Fin 3) = 0
    ∧ win0_2.index t (1 : Fin 3) = 0 ∧ win0_2.index t (2 : Fin 3) = 0 ∧ win0_2.index t (0 : Fin 3) ≤ 63 :=
  (by decide +kernel : ∀ t : Fin grid0.N, _)

/-- Every row block is some point's. -/
theorem index_onto : ∀ b : Fin 64, ∃ t : Fin cfg0.N, win0_2.index t (0 : Fin 3) = b.val :=
  (by decide +kernel : ∀ b : Fin 64, ∃ t : Fin grid0.N, win0_2.index t (0 : Fin 3) = b.val)

/-- Point t's gate block at (p, e) is the gates at row 128·(block index) + p. -/
theorem gate_block (c : Dev nD) (t : Fin cfg0.N) (p : Fin 128) (e : Fin 16) (R : Fin 8192)
    (hR : R.val = win0_2.index t (0 : Fin 3) * 128 + p.val) :
    iblk (F := Ideal) m c 0 t (ix2 p e) = gatesIn m c (ix2 R e) := by
  obtain ⟨e0, e1, -⟩ := index_facts t
  show V (F := Ideal) m c main_v15 (((cfg0.win 0).blk t).view.emb (ix2 p e)) = V (F := Ideal) m c main_v15 (ix2 R e)
  refine congrArg _ (funext fun a => Fin.ext ?_)
  match a with
  | ⟨0, _⟩ => show win0_0.index t (0 : Fin 2) * 128 + 1 * p.val = R.val; omega
  | ⟨1, _⟩ => show win0_0.index t (1 : Fin 2) * 16 + 1 * e.val = e.val; omega

/-- Point t's slot block at (p, 0) is the slot of row 128·(block index) + p. -/
theorem slot_block (c : Dev nD) (t : Fin cfg0.N) (p : Fin 128) (R : Fin 8192)
    (hR : R.val = win0_2.index t (0 : Fin 3) * 128 + p.val) :
    iblk (F := Ideal) m c 1 t (ix2 p (0 : Fin 1)) = slotsIn m c (ix1 R) := by
  obtain ⟨-, -, e2, e3, -⟩ := index_facts t
  show V (F := Ideal) m c main_v16 (((cfg0.win 1).blk t).view.emb (ix2 p (0 : Fin 1))) = V (F := Ideal) m c main_v16 (ix2 R (0 : Fin 1))
  refine congrArg _ (funext fun a => Fin.ext ?_)
  match a with
  | ⟨0, _⟩ => show win0_1.index t (0 : Fin 2) * 128 + 1 * p.val = R.val; omega
  | ⟨1, _⟩ => show win0_1.index t (1 : Fin 2) * 1 + 1 * 0 = 0; omega

/-- WHAT POINT t WRITES BACK through the weights' window is block t of the specification's weights. -/
theorem flushed_weights (c : Dev nD) (t : Fin cfg0.N) :
    (dats (F := Ideal) m 0 c).flushed 2 t = ((cfg0.win 2).blk t).view.read (Elt Ideal) (weights (gatesIn m c) (slotsIn m c)) := by
  show (cfg0.win 2).cut (grid0.coords t) ((dats (F := Ideal) m 0 c).after 2 t) = _
  rw [after0_2]
  unfold out0_2
  rw [View.canon_unit_zero zero3]
  simp only [View.ld_unit_zero (S := S128x16) zero2, View.ld_unit_zero (S := S128x1) zero2]
  obtain ⟨-, -, -, -, -, -, -, e7, e8, e9⟩ := index_facts t
  funext j
  obtain ⟨p, e, q, rfl⟩ : ∃ (p : Fin 128) (e : Fin 16) (q : Fin 512), j = ix3 p e q := ⟨j 0, j 1, j 2, eq_ix3 j⟩
  have hp := p.isLt
  show k0_pay1 (F := Ideal) (iblk (F := Ideal) m c 0 t) (iblk (F := Ideal) m c 1 t) (ix3 p e q)
    = weights (gatesIn m c) (slotsIn m c) (((cfg0.win 2).blk t).view.emb (ix3 p e q))
  refine (weight_block (iblk (F := Ideal) m c 0 t) (iblk (F := Ideal) m c 1 t) p e q).trans ?_
  refine Eq.trans ?_ (weights_at _ _ _ ⟨win0_2.index t (0 : Fin 3) * 128 + p.val, by omega⟩ e q ?_ ?_ ?_).symm
  · unfold weightAt
    rw [gate_block m c t p e ⟨win0_2.index t (0 : Fin 3) * 128 + p.val, by omega⟩ rfl,
      slot_block m c t p ⟨win0_2.index t (0 : Fin 3) * 128 + p.val, by omega⟩ rfl]
  · show win0_2.index t (0 : Fin 3) * 128 + 1 * p.val = win0_2.index t (0 : Fin 3) * 128 + p.val; omega
  · show win0_2.index t (1 : Fin 3) * 16 + 1 * e.val = e.val; omega
  · show win0_2.index t (2 : Fin 3) * 512 + 1 * q.val = q.val; omega

/-- WHAT POINT t WRITES BACK through the mask's window is block t of the dispatch mask as words. -/
theorem flushed_mask (c : Dev nD) (t : Fin cfg0.N) :
    (dats (F := Ideal) m 0 c).flushed 3 t = ((cfg0.win 3).blk t).view.read (Elt Ideal) (routedWord (gatesIn m c) (slotsIn m c)) := by
  show (cfg0.win 3).cut (grid0.coords t) ((dats (F := Ideal) m 0 c).after 3 t) = _
  rw [after0_3]
  unfold out0_3
  rw [View.canon_unit_zero zero3]
  simp only [View.ld_unit_zero (S := S128x16) zero2, View.ld_unit_zero (S := S128x1) zero2]
  obtain ⟨-, -, -, -, e4, e5, e6, -, -, e9⟩ := index_facts t
  funext j
  obtain ⟨p, e, q, rfl⟩ : ∃ (p : Fin 128) (e : Fin 16) (q : Fin 512), j = ix3 p e q := ⟨j 0, j 1, j 2, eq_ix3 j⟩
  have hp := p.isLt
  show k0_pay2 (F := Ideal) (iblk (F := Ideal) m c 0 t) (iblk (F := Ideal) m c 1 t) (ix3 p e q)
    = routedWord (gatesIn m c) (slotsIn m c) (((cfg0.win 3).blk t).view.emb (ix3 p e q))
  refine (mask_block (iblk (F := Ideal) m c 0 t) (iblk (F := Ideal) m c 1 t) p e q).trans ?_
  unfold routedWord
  refine congrArg (BitVec.setWidth 32) ?_
  refine Eq.trans ?_ (routed_at _ _ _ ⟨win0_2.index t (0 : Fin 3) * 128 + p.val, by omega⟩ e q ?_ ?_ ?_).symm
  · unfold weightAt
    rw [gate_block m c t p e ⟨win0_2.index t (0 : Fin 3) * 128 + p.val, by omega⟩ rfl,
      slot_block m c t p ⟨win0_2.index t (0 : Fin 3) * 128 + p.val, by omega⟩ rfl]
  · show win0_3.index t (0 : Fin 3) * 128 + 1 * p.val = win0_2.index t (0 : Fin 3) * 128 + p.val; omega
  · show win0_3.index t (1 : Fin 3) * 16 + 1 * e.val = e.val; omega
  · show win0_3.index t (2 : Fin 3) * 512 + 1 * q.val = q.val; omega

/-- An index of the weights' array is in point t's block iff each coordinate is in the block's range. -/
theorem mem_weights_block (t : Fin cfg0.N) (i : S8192x16x512.Idx) :
    i ∈ ((cfg0.win 2).blk t).view.set ↔ ∀ a : Fin 3, win0_2.index t a * S128x16x512.size a ≤ (i a).val ∧ (i a).val < win0_2.index t a * S128x16x512.size a + S128x16x512.size a := by
  show i ∈ ((View.whole main_v17_0).slice (win0_2.rect t)).set ↔ _
  rw [View.set_slice_whole, Rect.mem_set_unit]
  exact Iff.rfl

/-- The same for the mask's array. -/
theorem mem_mask_block (t : Fin cfg0.N) (i : S8192x16x512.Idx) :
    i ∈ ((cfg0.win 3).blk t).view.set ↔ ∀ a : Fin 3, win0_3.index t a * S128x16x512.size a ≤ (i a).val ∧ (i a).val < win0_3.index t a * S128x16x512.size a + S128x16x512.size a := by
  show i ∈ ((View.whole main_v17_1).slice (win0_3.rect t)).set ↔ _
  rw [View.set_slice_whole, Rect.mem_set_unit]
  exact Iff.rfl

/-- Row r lies in the block of the point whose row-block index is r / 128: the 64 blocks cover the array. -/
theorem weights_covered (i : S8192x16x512.Idx) :
    ∃ t : Fin cfg0.N, (cfg0.win 2).flush t = true ∧ i ∈ ((cfg0.win 2).blk t).view.set := by
  have h0 : (i 0).val < 8192 := (i 0).isLt
  have h1 : (i 1).val < 16 := (i 1).isLt
  have h2 : (i 2).val < 512 := (i 2).isLt
  obtain ⟨t, ht⟩ := index_onto ⟨(i 0).val / 128, by omega⟩
  have ht' : win0_2.index t (0 : Fin 3) = (i 0).val / 128 := ht
  obtain ⟨-, -, -, -, -, -, -, e7, e8, -⟩ := index_facts t
  refine ⟨t, flush0_2 t, ?_⟩
  rw [mem_weights_block]
  intro a
  match a with
  | ⟨0, _⟩ => show win0_2.index t (0 : Fin 3) * 128 ≤ (i 0).val ∧ (i 0).val < win0_2.index t (0 : Fin 3) * 128 + 128; omega
  | ⟨1, _⟩ => show win0_2.index t (1 : Fin 3) * 16 ≤ (i 1).val ∧ (i 1).val < win0_2.index t (1 : Fin 3) * 16 + 16; omega
  | ⟨2, _⟩ => show win0_2.index t (2 : Fin 3) * 512 ≤ (i 2).val ∧ (i 2).val < win0_2.index t (2 : Fin 3) * 512 + 512; omega

theorem mask_covered (i : S8192x16x512.Idx) :
    ∃ t : Fin cfg0.N, (cfg0.win 3).flush t = true ∧ i ∈ ((cfg0.win 3).blk t).view.set := by
  have h0 : (i 0).val < 8192 := (i 0).isLt
  have h1 : (i 1).val < 16 := (i 1).isLt
  have h2 : (i 2).val < 512 := (i 2).isLt
  obtain ⟨t, ht⟩ := index_onto ⟨(i 0).val / 128, by omega⟩
  have ht' : win0_2.index t (0 : Fin 3) = (i 0).val / 128 := ht
  obtain ⟨-, -, -, -, e4, e5, e6, -, -, -⟩ := index_facts t
  refine ⟨t, flush0_3 t, ?_⟩
  rw [mem_mask_block]
  intro a
  match a with
  | ⟨0, _⟩ => show win0_3.index t (0 : Fin 3) * 128 ≤ (i 0).val ∧ (i 0).val < win0_3.index t (0 : Fin 3) * 128 + 128; omega
  | ⟨1, _⟩ => show win0_3.index t (1 : Fin 3) * 16 ≤ (i 1).val ∧ (i 1).val < win0_3.index t (1 : Fin 3) * 16 + 16; omega
  | ⟨2, _⟩ => show win0_3.index t (2 : Fin 3) * 512 ≤ (i 2).val ∧ (i 2).val < win0_3.index t (2 : Fin 3) * 512 + 512; omega

/-- THE WEIGHTS' ARRAY after the region: the specification's weights of the gates and slots the region found. -/
theorem final_weights (c : Dev nD) : (dats (F := Ideal) m 0 c).arrAt 2 cfg0.N = weights (gatesIn m c) (slotsIn m c) :=
  (dats (F := Ideal) m 0 c).arrAt_eq_of_cover 2 _ (fun t _ => flushed_weights m c t) weights_covered

/-- THE MASK WORDS' ARRAY after the region. -/
theorem final_mask (c : Dev nD) : (dats (F := Ideal) m 0 c).arrAt 3 cfg0.N = routedWord (gatesIn m c) (slotsIn m c) :=
  (dats (F := Ideal) m 0 c).arrAt_eq_of_cover 3 _ (fun t _ => flushed_mask m c t) mask_covered

end Cert.KernelIdeal.Blocks

end
-- ==== Proof.HostPrefix.lean ====
/-
  The part both programs share, named once and never opened: from the expert ids and the padding mask,
  the kept assignment matrix and each token's capacity slot.

  `assigned` is the one-hot of the ids over the 16 experts, zeroed on padded tokens; `position` its running
  count down the token axis minus one (a token's rank within its expert); `kept` the assignments whose
  position is below the capacity 512; `slots` the position of each token's kept assignment (0 when it has
  none), and `gates` the kept assignments as floats. The bridge between the kernel and the reference uses
  only that both compute THESE terms of the same arguments.
-/
import proofs.«105331_j68908455297139_1_alg».proof.Proof.Gen.ReferenceIdeal
import Idealize.ShloMosaic.PureOps.Ideal

noncomputable section

namespace Cert.Routing

open Cert.ReferenceIdeal Cert.ReferenceIdeal.Facts₀ Idealize.ShloMosaic

/-- The one-hot of the expert ids over the 16 experts, zero on padded tokens. -/
def assigned (ids : IVec S8192 32) (pad : IVec S8192 1) : IVec S8192x16 32 :=
  muli
    (extui 32 (cmpi .eq
        (broadcastInDim S8192x16 ![0, 1] bcast_S8192x1_S8192x16_0_1 (broadcastInDim S8192x1 ![0] bcast_S8192_S8192x1_0 ids))
        (broadcastInDim S8192x16 ![0, 1] bcast_S1x16_S8192x16_0_1 (iotaInDim S1x16 32 1))) natLt_1_32)
    (broadcastInDim S8192x16 ![0, 1] bcast_S8192x1_S8192x16_0_1
      (extui 32 (broadcastInDim S8192x1 ![0] bcast_S8192_S8192x1_0 (noti pad)) natLt_1_32))

/-- A token's rank within its expert: the running count of assignments down the token axis, minus one. -/
def position (a : IVec S8192x16 32) : IVec S8192x16 32 :=
  subi
    (Host.reduceWindow IntOp.addi ![8192, 1] ![1, 1] ![8191, 0] ![0, 0] a
      (broadcastInDim S_ ![] bcast_S_S_ (constantI S_ 32 0#32))
      reduceWindows_S8192x16_S8192x16_w8192s1p8191_0_w1s1p0_0 h_S_)
    (broadcastInDim S8192x16 ![] bcast_S_S8192x16 (constantI S_ 32 1#32))

/-- The assignments whose rank is below the capacity 512. -/
def kept (ids : IVec S8192 32) (pad : IVec S8192 1) : IVec S8192x16 32 :=
  muli (assigned ids pad)
    (extui 32 (cmpi .slt (position (assigned ids pad)) (broadcastInDim S8192x16 ![] bcast_S_S8192x16 (constantI S_ 32 512#32))) natLt_1_32)

/-- Each token's capacity slot: the rank of its kept assignment, summed over the experts (at most one is kept). -/
def slots (ids : IVec S8192 32) (pad : IVec S8192 1) : IVec S8192 32 :=
  Host.reduce IntOp.addi (muli (position (assigned ids pad)) (kept ids pad)) (constantI S_ 32 0#32)
    reducesTo_S8192x16_S8192_d1 h_S_

/-- The kept assignments as floats. -/
def gates (ids : IVec S8192 32) (pad : IVec S8192 1) : FVec Ideal S8192x16 .f32 :=
  sitofp .f32 (kept ids pad)

end Cert.Routing

end
-- ==== Proof.KernelResults.lean ====
/-
  The kernel's results, read off its frame run.

  The region finds in `main_v15` the shared gates of the ids and the mask and in `main_v16` the shared slots
  as a column (the 27 host operations before it are the shared ones and one broadcast), and leaves in its two
  arrays the specification's weights and the dispatch mask as words. The five host operations after it
  compare the words with zero — which gives back the mask's bits — and write a scalar zero. So the three
  results are the zero, the weights and the dispatch mask of the shared gates and slots.
-/
import proofs.«105331_j68908455297139_1_alg».proof.Proof.KernelBlocks
import proofs.«105331_j68908455297139_1_alg».proof.Proof.HostPrefix
import Idealize.ShloMosaic.Lib.StableHlo.Run
import Idealize.ShloMosaic.Lib.IdealHost

noncomputable section

namespace Cert.KernelIdeal.Results

open Cert.KernelIdeal Cert.KernelIdeal.Gen Cert.KernelIdeal.Blocks Idealize.ShloMosaic Idealize.ShloMosaic.TcCoe
open Idealize.ShloMosaic.ValueIdx Idealize.SL.Sem Idealize.ShloMosaic.StableHlo Cert.Routing
open Idealize.ShloMosaic.Pipeline (Dat Cfg Window)

variable (m : (ℓ : Loc nD τ sig) → Buf (Elt Ideal) ℓ) (ρ : Dev nD → PrngReg)

/-! ## What the region finds -/

attribute [local irreducible] Host.reduceWindow Host.reduce in
/-- The gates the region finds are the shared term of the ids and the mask (the window sum and the row sum stay
    folded: the equation is between two spellings of one composed term). -/
theorem gates_found (c : Dev nD) :
    gatesIn m c = gates (m ((c.tc : Thread nD τ).loc main_arg1)) (m ((c.tc : Thread nD τ).loc main_arg2)) := by
  show V (F := Ideal) m c main_v15 = _
  dsimp only [Gen.V, Gen.V0]
  simp only [Gen.hostOps0, Gen.hostOps0_1, Gen.hostOps0_2, Gen.hostOps0_3, List.flatten_cons, List.flatten_nil,
    List.append_nil, List.cons_append, List.nil_append]
  after_results_simp
  rfl

attribute [local irreducible] Host.reduceWindow Host.reduce in
/-- The slot column the region finds is the shared slots, one per row. -/
theorem column_found (c : Dev nD) :
    V (F := Ideal) m c main_v16 = broadcastInDim S8192x1 ![0] Facts₀.bcast_S8192_S8192x1_0
      (slots (m ((c.tc : Thread nD τ).loc main_arg1)) (m ((c.tc : Thread nD τ).loc main_arg2))) := by
  dsimp only [Gen.V, Gen.V0]
  simp only [Gen.hostOps0, Gen.hostOps0_1, Gen.hostOps0_2, Gen.hostOps0_3, List.flatten_cons, List.flatten_nil,
    List.append_nil, List.cons_append, List.nil_append]
  after_results_simp
  rfl

/-- Read as a vector the column is the slots themselves. -/
theorem slots_found (c : Dev nD) :
    slotsIn m c = slots (m ((c.tc : Thread nD τ).loc main_arg1)) (m ((c.tc : Thread nD τ).loc main_arg2)) := by
  unfold slotsIn column
  rw [column_found]
  funext r
  obtain ⟨r0, rfl⟩ : ∃ r0 : Fin 8192, r = ix1 r0 := ⟨r 0, eq_ix1 r⟩
  exact broadcastInDim_apply _ _ _ (ix2 r0 (0 : Fin 1)) (ix1 r0) (fun a => match a with | ⟨0, _⟩ => rfl)

/-! ## The host operations after the region -/

/-- The mask result: the region's mask words compared with zero are the dispatch mask's bits. -/
theorem tail_mask (c : Dev nD) :
    Pipeline.afterTail₀ cfgs (dats (F := Ideal) m) 0 (V0 (F := Ideal) m) [hostOps1] c main_v20 = routed (gatesIn m c) (slotsIn m c) := by
  unfold Pipeline.afterTail₀
  show StableHlo.after hostOps1 _ (Proc.devRef .tc main_v20) = _
  after_results
  have hw : Pipeline.withArrays (cfgs 0).spec c (V0 (F := Ideal) m c) (fun w => (dats (F := Ideal) m 0 c).arrAt w (cfgs 0).N)
      (Proc.devRef .tc main_v17_1) = routedWord (gatesIn m c) (slotsIn m c) :=
    (Pipeline.withArrays_arr spec0 launch0.win.arr_inj c _ _ 3).trans (final_mask m c)
  rw [hw]
  funext i
  show IntOp.cmpi .ne ((routed (gatesIn m c) (slotsIn m c) i).setWidth 32)
    (broadcastInDim S8192x16x512 ![] _ (constantI S_ 32 0#32) i) = _
  rw [broadcastInDim_scalar_apply]
  exact cmpi_ne_extui_bit _

/-- The scalar result is the zero constant. -/
theorem tail_zero (c : Dev nD) :
    Pipeline.afterTail₀ cfgs (dats (F := Ideal) m) 0 (V0 (F := Ideal) m) [hostOps1] c main_cst = constant (F := Ideal) S_ .f32 0x00000000#32 := by
  unfold Pipeline.afterTail₀
  show StableHlo.after hostOps1 _ (Proc.devRef .tc main_cst) = _
  after_results

/-! ## The run -/

/-- Every weakly fair execution of the idealized kernel's @main terminates with the scalar at zero, the weights'
    array at the specification's weights and the mask at its dispatch mask, of the shared gates and slots of the
    launch's ids and padding mask; the arguments unchanged. -/
theorem run : θ_run defs (onTc (τ := τ) (main (F := Ideal))) ⟨m, fun _ => 0, ρ⟩ fun r => ∀ c : Dev nD,
      r.2.mem ((c.tc : Thread nD τ).loc main_cst) = constant (F := Ideal) S_ .f32 0x00000000#32
      ∧ r.2.mem ((c.tc : Thread nD τ).loc main_v17_0)
          = weights (gates (m ((c.tc : Thread nD τ).loc main_arg1)) (m ((c.tc : Thread nD τ).loc main_arg2)))
              (slots (m ((c.tc : Thread nD τ).loc main_arg1)) (m ((c.tc : Thread nD τ).loc main_arg2)))
      ∧ r.2.mem ((c.tc : Thread nD τ).loc main_v20)
          = routed (gates (m ((c.tc : Thread nD τ).loc main_arg1)) (m ((c.tc : Thread nD τ).loc main_arg2)))
              (slots (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_cst (Pipeline.mem_restRefs_of main_cst (by decide) (by decide))).trans (tail_zero m c),
      ((h c).1 2).trans ((final_weights m c).trans (by rw [gates_found, slots_found])),
      ((h c).2 main_v20 (Pipeline.mem_restRefs_of main_v20 (by decide) (by decide))).trans
        ((tail_mask m c).trans (by rw [gates_found, slots_found])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main (F := Ideal) m ρ)

end Cert.KernelIdeal.Results

end
-- ==== Proof.RefRun.lean ====
/-
  The reference program's run, read back. Its @main is a straight line of 42 host operations once the three
  outlined functions (the one-hot over the experts, the cumulative sum, the one-hot over the capacity slots)
  are written at their calls. The first 26 compute, from the expert ids and the padding mask alone, the kept
  assignment matrix as floats (`main_v15`) and each token's capacity slot (`main_v14`); the last 16 build the
  outer product of the two and its non-zero mask. Every weakly fair execution terminates with each buffer at
  the fold of the operations over the launch contents.
-/
import proofs.«105331_j68908455297139_1_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The 26 operations that depend on the expert ids and the padding mask only: the masked one-hot, its
    running count down the token axis, the capacity cut, the slot of each token and the kept assignments as floats. -/
abbrev pre : List (HloOp τ sig (Elt F)) :=
  [ TRef.unary (.of main_arg1 : TRef sig ⟨S8192, .i32⟩) main_call0.v0 (broadcastInDim S8192x1 ![0] bcast_S8192_S8192x1_0),
    TRef.nullary main_call0.v1 (iotaInDim S1x16 32 1),
    TRef.unary main_call0.v0 main_call0.v2 (broadcastInDim S8192x16 ![0, 1] bcast_S8192x1_S8192x16_0_1),
    TRef.unary main_call0.v1 main_call0.v3 (broadcastInDim S8192x16 ![0, 1] bcast_S1x16_S8192x16_0_1),
    TRef.binary main_call0.v2 main_call0.v3 main_call0.v4 (cmpi .eq),
    TRef.unary main_call0.v4 main_call0.v5 (extui 32 · natLt_1_32),
    unary main_arg2 main_v1 (noti : (⟨S8192, .i1⟩ : BufTy).Contents (Elt F) → (⟨S8192, .i1⟩ : BufTy).Contents (Elt F)),
    unary main_v1 main_v2 (broadcastInDim S8192x1 ![0] bcast_S8192_S8192x1_0 : (⟨S8192, .i1⟩ : BufTy).Contents (Elt F) → (⟨S8192x1, .i1⟩ : BufTy).Contents (Elt F)),
    unary main_v2 main_v3 ((extui 32 · natLt_1_32) : (⟨S8192x1, .i1⟩ : BufTy).Contents (Elt F) → (⟨S8192x1, .i32⟩ : BufTy).Contents (Elt F)),
    unary main_v3 main_v4 (broadcastInDim S8192x16 ![0, 1] bcast_S8192x1_S8192x16_0_1 : (⟨S8192x1, .i32⟩ : BufTy).Contents (Elt F) → (⟨S8192x16, .i32⟩ : BufTy).Contents (Elt F)),
    binary main_v0 main_v4 main_v5 (muli : (⟨S8192x16, .i32⟩ : BufTy).Contents (Elt F) → (⟨S8192x16, .i32⟩ : BufTy).Contents (Elt F) → (⟨S8192x16, .i32⟩ : BufTy).Contents (Elt F)),
    TRef.nullary main_call1.call0.c (constantI S_ 32 0#32),
    TRef.unary main_call1.call0.c main_call1.call0.v0 (broadcastInDim S_ ![] bcast_S_S_),
    TRef.binary (.of main_v5 : TRef sig ⟨S8192x16, .i32⟩) main_call1.call0.v0 main_call1.call0.v1 (fun x v => Host.reduceWindow IntOp.addi ![8192, 1] ![1, 1] ![8191, 0] ![0, 0] x v reduceWindows_S8192x16_S8192x16_w8192s1p8191_0_w1s1p0_0 h_S_),
    nullary main_c (constantI S_ 32 1#32),
    unary main_c main_v7 (broadcastInDim S8192x16 ![] bcast_S_S8192x16 : (⟨S_, .i32⟩ : BufTy).Contents (Elt F) → (⟨S8192x16, .i32⟩ : BufTy).Contents (Elt F)),
    binary main_v6 main_v7 main_v8 (subi : (⟨S8192x16, .i32⟩ : BufTy).Contents (Elt F) → (⟨S8192x16, .i32⟩ : BufTy).Contents (Elt F) → (⟨S8192x16, .i32⟩ : BufTy).Contents (Elt F)),
    nullary main_c_0 (constantI S_ 32 512#32),
    unary main_c_0 main_v9 (broadcastInDim S8192x16 ![] bcast_S_S8192x16 : (⟨S_, .i32⟩ : BufTy).Contents (Elt F) → (⟨S8192x16, .i32⟩ : BufTy).Contents (Elt F)),
    binary main_v8 main_v9 main_v10 (cmpi .slt : (⟨S8192x16, .i32⟩ : BufTy).Contents (Elt F) → (⟨S8192x16, .i32⟩ : BufTy).Contents (Elt F) → (⟨S8192x16, .i1⟩ : BufTy).Contents (Elt F)),
    unary main_v10 main_v11 ((extui 32 · natLt_1_32) : (⟨S8192x16, .i1⟩ : BufTy).Contents (Elt F) → (⟨S8192x16, .i32⟩ : BufTy).Contents (Elt F)),
    binary main_v5 main_v11 main_v12 (muli : (⟨S8192x16, .i32⟩ : BufTy).Contents (Elt F) → (⟨S8192x16, .i32⟩ : BufTy).Contents (Elt F) → (⟨S8192x16, .i32⟩ : BufTy).Contents (Elt F)),
    binary main_v8 main_v12 main_v13 (muli : (⟨S8192x16, .i32⟩ : BufTy).Contents (Elt F) → (⟨S8192x16, .i32⟩ : BufTy).Contents (Elt F) → (⟨S8192x16, .i32⟩ : BufTy).Contents (Elt F)),
    nullary main_c_1 (constantI S_ 32 0#32),
    binary main_v13 main_c_1 main_v14 ((fun x v => Host.reduce IntOp.addi x v reducesTo_S8192x16_S8192_d1 h_S_) : (⟨S8192x16, .i32⟩ : BufTy).Contents (Elt F) → (⟨S_, .i32⟩ : BufTy).Contents (Elt F) → (⟨S8192, .i32⟩ : BufTy).Contents (Elt F)),
    unary main_v12 main_v15 (sitofp .f32 : (⟨S8192x16, .i32⟩ : BufTy).Contents (Elt F) → (⟨S8192x16, .f32⟩ : BufTy).Contents (Elt F)) ]

/-- The reference's own 16 operations: the one-hot of the slots over the 512 capacity positions, the two
    broadcasts to [8192, 16, 512], their product, its comparison with zero, and the scalar zero. -/
abbrev post : List (HloOp τ sig (Elt F)) :=
  [ TRef.unary (.of main_v14 : TRef sig ⟨S8192, .i32⟩) main_call2.v0 (broadcastInDim S8192x1 ![0] bcast_S8192_S8192x1_0),
    TRef.nullary main_call2.v1 (iotaInDim S1x512 32 1),
    TRef.unary main_call2.v0 main_call2.v2 (broadcastInDim S8192x512 ![0, 1] bcast_S8192x1_S8192x512_0_1),
    TRef.unary main_call2.v1 main_call2.v3 (broadcastInDim S8192x512 ![0, 1] bcast_S1x512_S8192x512_0_1),
    TRef.binary main_call2.v2 main_call2.v3 main_call2.v4 (cmpi .eq),
    TRef.unary main_call2.v4 main_call2.v5 (uitofp .f32),
    unary main_v15 main_v17 (broadcastInDim S8192x16x1 ![0, 1] bcast_S8192x16_S8192x16x1_0_1 : (⟨S8192x16, .f32⟩ : BufTy).Contents (Elt F) → (⟨S8192x16x1, .f32⟩ : BufTy).Contents (Elt F)),
    unary main_v16 main_v18 (broadcastInDim S8192x1x512 ![0, 2] bcast_S8192x512_S8192x1x512_0_2 : (⟨S8192x512, .f32⟩ : BufTy).Contents (Elt F) → (⟨S8192x1x512, .f32⟩ : BufTy).Contents (Elt F)),
    unary main_v17 main_v19 (broadcastInDim S8192x16x512 ![0, 1, 2] bcast_S8192x16x1_S8192x16x512_0_1_2 : (⟨S8192x16x1, .f32⟩ : BufTy).Contents (Elt F) → (⟨S8192x16x512, .f32⟩ : BufTy).Contents (Elt F)),
    unary main_v18 main_v20 (broadcastInDim S8192x16x512 ![0, 1, 2] bcast_S8192x1x512_S8192x16x512_0_1_2 : (⟨S8192x1x512, .f32⟩ : BufTy).Contents (Elt F) → (⟨S8192x16x512, .f32⟩ : BufTy).Contents (Elt F)),
    binary main_v19 main_v20 main_v21 (mulf : (⟨S8192x16x512, .f32⟩ : BufTy).Contents (Elt F) → (⟨S8192x16x512, .f32⟩ : BufTy).Contents (Elt F) → (⟨S8192x16x512, .f32⟩ : BufTy).Contents (Elt F)),
    nullary main_cst (constant S_ .f32 0x00000000#32),
    unary main_cst main_v22 (broadcastInDim S8192x16x512 ![] bcast_S_S8192x16x512 : (⟨S_, .f32⟩ : BufTy).Contents (Elt F) → (⟨S8192x16x512, .f32⟩ : BufTy).Contents (Elt F)),
    binary main_v21 main_v22 main_v23 (cmpf .une : (⟨S8192x16x512, .f32⟩ : BufTy).Contents (Elt F) → (⟨S8192x16x512, .f32⟩ : BufTy).Contents (Elt F) → (⟨S8192x16x512, .i1⟩ : BufTy).Contents (Elt F)),
    unary main_v23 main_v24 (id : (⟨S8192x16x512, .i1⟩ : BufTy).Contents (Elt F) → (⟨S8192x16x512, .i1⟩ : BufTy).Contents (Elt F)),
    nullary main_cst_2 (constant S_ .f32 0x00000000#32) ]

/-- The fold over a concatenation is the fold over the second line from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

set_option maxRecDepth 2048 in
/-- @main is that straight line: the outlined functions unfolded at their calls, sequencing reassociated. -/
theorem main_eq (c : Dev nD) : main (F := F) c = seq (pre ++ post) := by
  rw [seq_append]
  simp only [main, fn_one_hot.body, fn_cumsum.body, fn_cumsum_0.body, fn_one_hot_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem pre_sub : (pre : List (HloOp τ sig (Elt F))).Forall fun op => op.bufs ⊆ tcRefs τ sig :=
  ⟨unary_bufs_sub .., nullary_bufs_sub .., unary_bufs_sub .., unary_bufs_sub .., binary_bufs_sub .., unary_bufs_sub ..,
    unary_bufs_sub .., unary_bufs_sub .., unary_bufs_sub .., unary_bufs_sub .., binary_bufs_sub ..,
    nullary_bufs_sub .., unary_bufs_sub .., binary_bufs_sub ..,
    nullary_bufs_sub .., unary_bufs_sub .., binary_bufs_sub .., nullary_bufs_sub .., unary_bufs_sub .., binary_bufs_sub ..,
    unary_bufs_sub .., binary_bufs_sub .., binary_bufs_sub .., nullary_bufs_sub .., binary_bufs_sub .., unary_bufs_sub ..⟩

theorem post_sub : (post : List (HloOp τ sig (Elt F))).Forall fun op => op.bufs ⊆ tcRefs τ sig :=
  ⟨unary_bufs_sub .., nullary_bufs_sub .., unary_bufs_sub .., unary_bufs_sub .., binary_bufs_sub .., unary_bufs_sub ..,
    unary_bufs_sub .., unary_bufs_sub .., unary_bufs_sub .., unary_bufs_sub .., binary_bufs_sub ..,
    nullary_bufs_sub .., unary_bufs_sub .., binary_bufs_sub .., unary_bufs_sub .., nullary_bufs_sub ..⟩

theorem ops_sub : (pre ++ post : List (HloOp τ sig (Elt F))).Forall fun op => op.bufs ⊆ tcRefs τ sig :=
  List.forall_iff_forall_mem.mpr fun op h => (List.mem_append.mp h).elim
    (List.forall_iff_forall_mem.mp pre_sub op) (List.forall_iff_forall_mem.mp post_sub op)

theorem pre_fresh : ∀ op ∈ (pre : List (HloOp τ sig (Elt F))), op.fresh = ∅ := by
  intro _ h; (repeat (cases h with | head => rfl | tail _ h => ?_)); exact nomatch h

theorem post_fresh : ∀ op ∈ (post : List (HloOp τ sig (Elt F))), op.fresh = ∅ := by
  intro _ h; (repeat (cases h with | head => rfl | tail _ h => ?_)); exact nomatch h

/-- At the compiled mesh, from any memory with zero counters: every weakly fair execution of @main terminates,
    and every final state has each buffer at the reference's own operations' fold over the contents the
    first 26 operations leave. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after post (after pre (launchContents m c)) (b : DevRef τ sig) :=
  (θ_run defs _ _).mono (fun _ h c b => (h c b).trans (congrFun (after_append pre post _) _))
    (run_seq scopedRefs_eq scopedSems_eq defs main (fun _ => pre ++ post) main_eq (fun _ => ops_sub) m ρ
      (fun _ op h => (List.mem_append.mp h).elim (pre_fresh op) (post_fresh op)))

end Cert.ReferenceIdeal.HostRun

end
-- ==== Proof.RefValue.lean ====
/-
  What the reference computes, read off its run.

  Its first 26 operations leave the gates in `main_v15` and the slots in `main_v14` (the shared terms of the
  ids and the mask); its last 16 take those two arrays to the outer product `main_v21`, the product's
  non-zero mask `main_v24` and a scalar zero. Read at (r, e, q) the product is gate(r, e) times the indicator
  that slot(r) = q: each broadcast reads its operand at the coordinates it keeps.
-/
import proofs.«105331_j68908455297139_1_alg».proof.Proof.RefRun
import proofs.«105331_j68908455297139_1_alg».proof.Proof.HostPrefix
import proofs.«105331_j68908455297139_1_alg».proof.Proof.Spec
import Idealize.ShloMosaic.Lib.Pipeline.Value
import Idealize.ShloMosaic.Lib.IdealHost

noncomputable section

namespace Cert.ReferenceIdeal.HostValue

open Cert.ReferenceIdeal Cert.ReferenceIdeal.Facts₀ Cert.ReferenceIdeal.HostRun
open Idealize.ShloMosaic Idealize.ShloMosaic.TcCoe Idealize.SL.Sem Idealize.ShloMosaic.StableHlo Idealize.ShloMosaic.ValueIdx
open Cert.Routing

/-! ## The reference's own operations as two functions -/

/-- The outer product as the reference builds it from the gates and the slots. -/
def product (g : FVec Ideal S8192x16 .f32) (l : IVec S8192 32) : FVec Ideal S8192x16x512 .f32 :=
  mulf
    (broadcastInDim S8192x16x512 ![0, 1, 2] bcast_S8192x16x1_S8192x16x512_0_1_2
      (broadcastInDim S8192x16x1 ![0, 1] bcast_S8192x16_S8192x16x1_0_1 g))
    (broadcastInDim S8192x16x512 ![0, 1, 2] bcast_S8192x1x512_S8192x16x512_0_1_2
      (broadcastInDim S8192x1x512 ![0, 2] bcast_S8192x512_S8192x1x512_0_2
        (uitofp .f32 (cmpi .eq
          (broadcastInDim S8192x512 ![0, 1] bcast_S8192x1_S8192x512_0_1 (broadcastInDim S8192x1 ![0] bcast_S8192_S8192x1_0 l))
          (broadcastInDim S8192x512 ![0, 1] bcast_S1x512_S8192x512_0_1 (iotaInDim S1x512 32 1))))))

/-- Its comparison with zero. -/
def nonzero (x : FVec Ideal S8192x16x512 .f32) : IVec S8192x16x512 1 :=
  cmpf .une x (broadcastInDim S8192x16x512 ![] bcast_S_S8192x16x512 (constant (F := Ideal) S_ .f32 0x00000000#32))

/-! ## The folds at the buffers that matter -/

theorem post_v21 (W : Valuation τ sig (Elt Ideal)) :
    after post W (main_v21 : DevRef τ sig) = product (W (main_v15 : DevRef τ sig)) (W (main_v14 : DevRef τ sig)) := by
  after_results
  rfl

theorem post_v24 (W : Valuation τ sig (Elt Ideal)) :
    after post W (main_v24 : DevRef τ sig) = nonzero (product (W (main_v15 : DevRef τ sig)) (W (main_v14 : DevRef τ sig))) := by
  after_results
  rfl

theorem post_cst_2 (W : Valuation τ sig (Elt Ideal)) :
    after post W (main_cst_2 : DevRef τ sig) = constant (F := Ideal) S_ .f32 0x00000000#32 := by
  after_results

theorem post_arg0 (W : Valuation τ sig (Elt Ideal)) : after post W (main_arg0 : DevRef τ sig) = W (main_arg0 : DevRef τ sig) := by
  after_results
theorem post_arg1 (W : Valuation τ sig (Elt Ideal)) : after post W (main_arg1 : DevRef τ sig) = W (main_arg1 : DevRef τ sig) := by
  after_results
theorem post_arg2 (W : Valuation τ sig (Elt Ideal)) : after post W (main_arg2 : DevRef τ sig) = W (main_arg2 : DevRef τ sig) := by
  after_results

theorem pre_arg0 (W : Valuation τ sig (Elt Ideal)) : after pre W (main_arg0 : DevRef τ sig) = W (main_arg0 : DevRef τ sig) := by
  after_results
theorem pre_arg1 (W : Valuation τ sig (Elt Ideal)) : after pre W (main_arg1 : DevRef τ sig) = W (main_arg1 : DevRef τ sig) := by
  after_results
theorem pre_arg2 (W : Valuation τ sig (Elt Ideal)) : after pre W (main_arg2 : DevRef τ sig) = W (main_arg2 : DevRef τ sig) := by
  after_results

attribute [local irreducible] Host.reduceWindow Host.reduce in
/-- The first 26 operations leave the shared gates in `main_v15` (the window sum and the row sum stay folded:
    the equation is between two spellings of one composed term and never looks inside them), -/
theorem pre_v15 (W : Valuation τ sig (Elt Ideal)) :
    after pre W (main_v15 : DevRef τ sig) = gates (W (main_arg1 : DevRef τ sig)) (W (main_arg2 : DevRef τ sig)) := by
  after_results_simp
  rfl

attribute [local irreducible] Host.reduceWindow Host.reduce in
/-- and the shared slots in `main_v14`. -/
theorem pre_v14 (W : Valuation τ sig (Elt Ideal)) :
    after pre W (main_v14 : DevRef τ sig) = slots (W (main_arg1 : DevRef τ sig)) (W (main_arg2 : DevRef τ sig)) := by
  after_results_simp
  rfl

/-! ## The product at an index -/

/-- Each of the reference's broadcasts reads its operand at the coordinates it keeps. -/
theorem product_apply (g : FVec Ideal S8192x16 .f32) (l : IVec S8192 32) (r : Fin 8192) (e : Fin 16) (q : Fin 512) :
    product g l (ix3 r e q) = weightAt g l r e q := by
  unfold product weightAt
  refine (mulf_apply _ _ _).trans ?_
  refine congrArg₂ (· * ·) ?_ ?_
  · refine (broadcastInDim_apply _ _ _ (ix3 r e q) (ix3 r e (0 : Fin 1))
      (fun a => match a with | ⟨0, _⟩ => rfl | ⟨1, _⟩ => rfl | ⟨2, _⟩ => rfl)).trans ?_
    exact broadcastInDim_apply _ _ _ (ix3 r e (0 : Fin 1)) (ix2 r e) (fun a => match a with | ⟨0, _⟩ => rfl | ⟨1, _⟩ => rfl)
  · refine (broadcastInDim_apply _ _ _ (ix3 r e q) (ix3 r (0 : Fin 1) q)
      (fun a => match a with | ⟨0, _⟩ => rfl | ⟨1, _⟩ => rfl | ⟨2, _⟩ => rfl)).trans ?_
    refine (broadcastInDim_apply _ _ _ (ix3 r (0 : Fin 1) q) (ix2 r q) (fun a => match a with | ⟨0, _⟩ => rfl | ⟨1, _⟩ => rfl)).trans ?_
    unfold atSlot
    show FloatOps.uitofp (F := Ideal) .f32 (IntOp.cmpi .eq
      (broadcastInDim S8192x512 ![0, 1] _ (broadcastInDim S8192x1 ![0] _ l) (ix2 r q))
      (broadcastInDim S8192x512 ![0, 1] _ (iotaInDim S1x512 32 1) (ix2 r q))) = _
    rw [broadcastInDim_apply _ _ _ (ix2 r q) (ix2 r (0 : Fin 1)) (fun a => match a with | ⟨0, _⟩ => rfl | ⟨1, _⟩ => rfl),
      broadcastInDim_apply _ _ l (ix2 r (0 : Fin 1)) (ix1 r) (fun a => match a with | ⟨0, _⟩ => rfl),
      broadcastInDim_apply _ _ (iotaInDim S1x512 32 1) (ix2 r q) (ix2 (0 : Fin 1) q) (fun a => match a with | ⟨0, _⟩ => rfl | ⟨1, _⟩ => rfl)]
    rfl

/-- THE REFERENCE'S PRODUCT is the specification's weights. -/
theorem product_eq (g : FVec Ideal S8192x16 .f32) (l : IVec S8192 32) : product g l = weights g l := by
  funext i
  obtain ⟨r, e, q, rfl⟩ : ∃ (r : Fin 8192) (e : Fin 16) (q : Fin 512), i = ix3 r e q := ⟨i 0, i 1, i 2, eq_ix3 i⟩
  exact product_apply g l r e q

/-- THE REFERENCE'S MASK is the specification's: the comparison with the zero word broadcast. -/
theorem nonzero_eq (g : FVec Ideal S8192x16 .f32) (l : IVec S8192 32) : nonzero (product g l) = routed g l := by
  rw [product_eq]
  funext i
  unfold nonzero routed
  refine (cmpf_apply _ _ _ _).trans ?_
  rw [broadcastInDim_scalar_apply]
  rfl

/-! ## The run, read -/

/-- Every weakly fair execution of the reference's @main terminates with the scalar at zero, the product at the
    specification's weights and its comparison at the dispatch mask, of the shared gates and slots of the
    launch's ids and padding mask; the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_cst_2) = constant (F := Ideal) S_ .f32 0x00000000#32
      ∧ r.2.mem ((c.tc : Thread nD τ).loc main_v21)
          = weights (gates (m ((c.tc : Thread nD τ).loc main_arg1)) (m ((c.tc : Thread nD τ).loc main_arg2)))
              (slots (m ((c.tc : Thread nD τ).loc main_arg1)) (m ((c.tc : Thread nD τ).loc main_arg2)))
      ∧ r.2.mem ((c.tc : Thread nD τ).loc main_v24)
          = routed (gates (m ((c.tc : Thread nD τ).loc main_arg1)) (m ((c.tc : Thread nD τ).loc main_arg2)))
              (slots (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨(h c main_cst_2).trans (post_cst_2 _),
      (h c main_v21).trans (by rw [post_v21, pre_v15, pre_v14, product_eq]),
      (h c main_v24).trans (by rw [post_v24, pre_v15, pre_v14, nonzero_eq]),
      (h c main_arg0).trans (by rw [post_arg0, pre_arg0]),
      (h c main_arg1).trans (by rw [post_arg1, pre_arg1]),
      (h c main_arg2).trans (by rw [post_arg2, pre_arg2])⟩)
    (run_main (F := Ideal) m ρ)

end Cert.ReferenceIdeal.HostValue

end
-- ==== Proof.lean ====
/-
  A top-1 router's dispatch and combine tensors: the tiled kernel against the plain jnp program.

  Both programs first compute, by the SAME integer host operations on the expert ids and the padding mask, the
  kept assignment matrix gate[r, e] ∈ {0, 1} (token r goes to expert e, is not padded, and its rank within the
  expert is below the capacity 512) and the slot slot[r] of each token. The kernel then builds, 128 tokens
  per grid point,
        weight[r, e, q] = gate[r, e] · [ q = slot[r] ],      mask[r, e, q] = ( weight[r, e, q] ≠ 0 ),
  the indicator as an equality bit widened to a word and converted as a signed integer, the mask stored as
  words and compared with zero on the host afterwards; the reference builds the indicator by a one-hot of the
  slots (the same bit converted as an unsigned integer), the product by two broadcasts, and the mask by a float
  comparison. On the extended reals these are one function, index by index: the two conversions of a bit agree,
  equality of words is symmetric, "ordered and unequal" is "unordered or unequal", and a widened bit differs
  from the zero word exactly when it is set. No arithmetic law is used, so the finiteness of the (unused) float
  input is never needed. The third result is the scalar zero on both sides.

  The kernel's frames and the kernel's run to its arrays are the generated ones; the ideal pass rewrote nothing,
  so `preserves` is `True`.
-/
import proofs.«105331_j68908455297139_1_alg».proof.Defs
import proofs.«105331_j68908455297139_1_alg».proof.Proof.Gen.Kernel
import proofs.«105331_j68908455297139_1_alg».proof.Proof.Gen.Kernel.Frame
import proofs.«105331_j68908455297139_1_alg».proof.Proof.Gen.KernelIdeal
import proofs.«105331_j68908455297139_1_alg».proof.Proof.Gen.KernelIdeal.Frame
import proofs.«105331_j68908455297139_1_alg».proof.Proof.Gen.ReferenceIdeal
import proofs.«105331_j68908455297139_1_alg».proof.Proof.Gen.Pre_finite_inputs
import proofs.«105331_j68908455297139_1_alg».proof.Proof.KernelResults
import proofs.«105331_j68908455297139_1_alg».proof.Proof.RefValue
import Idealize.ShloMosaic.Adequacy
import Idealize.ShloMosaic.Init

noncomputable section

namespace Cert.Proof

open Idealize.ShloMosaic Idealize.SL.Sem Cert.Routing

theorem frame_kernel : Cert.frame_Kernel := fun m ρ _ => Cert.Kernel.Gen.frame m ρ

theorem frame_ideal : Cert.frame_KernelIdeal := fun m ρ _ => Cert.KernelIdeal.Gen.frame m ρ

/-- The reference's run keeps its arguments: its result run with the three results dropped. -/
theorem frame_reference : Cert.frame_ReferenceIdeal := fun m ρ _ =>
  (θ_run Cert.ReferenceIdeal.defs _ _).mono (fun _ h c => (h c).2.2.2) (Cert.ReferenceIdeal.HostValue.run m ρ)

theorem preserves : Cert.preserves_Kernel_KernelIdeal := trivial

/-- From memories agreeing on the arguments both programs end with the scalar zero, the weights and the dispatch
    mask of the shared gates and slots of the SAME ids and padding mask. -/
theorem algebraic : Cert.algebraic_KernelIdeal_ReferenceIdeal := by
  intro m ρ m' ρ' _ hagree
  refine ⟨fun _ => constant (F := Ideal) Cert.KernelIdeal.S_ .f32 0x00000000#32,
    fun c => weights
      (gates (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))
      (slots (m ((c.tc : Thread Cert.KernelIdeal.nD Cert.KernelIdeal.τ).loc Cert.KernelIdeal.main_arg1))
        (m ((c.tc : Thread Cert.KernelIdeal.nD Cert.KernelIdeal.τ).loc Cert.KernelIdeal.main_arg2))),
    fun c => routed
      (gates (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))
      (slots (m ((c.tc : Thread Cert.KernelIdeal.nD Cert.KernelIdeal.τ).loc Cert.KernelIdeal.main_arg1))
        (m ((c.tc : Thread Cert.KernelIdeal.nD Cert.KernelIdeal.τ).loc Cert.KernelIdeal.main_arg2))),
    Cert.KernelIdeal.Results.run m ρ, ?_⟩
  refine (θ_run Cert.ReferenceIdeal.defs _ _).mono (fun _ h c => ?_) (Cert.ReferenceIdeal.HostValue.run m' ρ')
  obtain ⟨h0, h1, h2, h3, h4, h5⟩ := h c
  obtain ⟨-, a1, a2⟩ := hagree c
  refine ⟨h0, ?_, ?_, h3, h4, h5⟩
  · rw [h1, a1, a2]
  · rw [h2, a1, a2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
